-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x2 : Shape := ⟨3, ![64, 8192, 2]⟩
abbrev S64x8192 : Shape := ⟨2, ![64, 8192]⟩
abbrev S128x2 : Shape := ⟨2, ![128, 2]⟩
abbrev S_ : Shape := ⟨0, ![]⟩

class Facts : Prop where
  bcast_S_S64x8192x2 : S_.BroadcastsInDim S64x8192x2 (![] : Fin 0 → Fin S64x8192x2.rank)
  reducesTo_S64x8192x2_S_d0_1_2 : S64x8192x2.ReducesTo [0, 1, 2] S_
  h_S_ : 0 < S_.numel
  bcast_S_S64x8192 : S_.BroadcastsInDim S64x8192 (![] : Fin 0 → Fin S64x8192.rank)
  reducesTo_S64x8192_S_d0_1 : S64x8192.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S64x8192x2 .f32) (main_arg1 : FVec F S64x8192 .f32) (main_arg2 : FVec F S128x2 .f32) (main_arg3 : FVec F S128x2 .f32) : IVec S_ 1 :=
  let main_v0 : FVec F S64x8192x2 .f32 := Host.absf main_arg0
  let main_cst : FVec F S_ .f32 := constant S_ .f32 0x7F800000#32
  let main_v1 : FVec F S64x8192x2 .f32 := broadcastInDim S64x8192x2 ![] bcast_S_S64x8192x2 main_cst
  let main_v2 : IVec S64x8192x2 1 := cmpf .olt main_v0 main_v1
  let main_c : IVec S_ 1 := constantI S_ 1 1#1
  let main_v3 : IVec S_ 1 := (fun x v => Host.reduce IntOp.andi x v reducesTo_S64x8192x2_S_d0_1_2 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S64x8192x2 : Shape := ⟨3, ![64, 8192, 2]⟩
abbrev S64x8192 : Shape := ⟨2, ![64, 8192]⟩
abbrev S128x2 : Shape := ⟨2, ![128, 2]⟩
abbrev S64x2x8192 : Shape := ⟨3, ![64, 2, 8192]⟩
abbrev S2x128 : Shape := ⟨2, ![2, 128]⟩
abbrev S64x128 : Shape := ⟨2, ![64, 128]⟩
abbrev S16x2x1024 : Shape := ⟨3, ![16, 2, 1024]⟩
abbrev S16x1024 : Shape := ⟨2, ![16, 1024]⟩
abbrev S16x128 : Shape := ⟨2, ![16, 128]⟩
abbrev S16x1024x128 : Shape := ⟨3, ![16, 1024, 128]⟩
abbrev S16x1x1024 : Shape := ⟨3, ![16, 1, 1024]⟩
abbrev S1x128 : Shape := ⟨2, ![1, 128]⟩
abbrev S128 : Shape := ⟨1, ![128]⟩
abbrev S1x1x128 : Shape := ⟨3, ![1, 1, 128]⟩
abbrev S16x1024x1 : Shape := ⟨3, ![16, 1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x8192x2, .f32⟩
  | .hbm, ⟨1, _⟩ => ⟨S64x8192, .f32⟩
  | .hbm, ⟨2, _⟩ => ⟨S128x2, .f32⟩
  | .hbm, ⟨3, _⟩ => ⟨S128x2, .f32⟩
  | .hbm, ⟨4, _⟩ => ⟨S64x2x8192, .f32⟩
  | .hbm, ⟨5, _⟩ => ⟨S2x128, .f32⟩
  | .hbm, ⟨6, _⟩ => ⟨S2x128, .f32⟩
  | .hbm, ⟨7, _⟩ => ⟨S64x128, .f32⟩
  | .local _ .vmem, ⟨0, _⟩ => ⟨S16x2x1024, .f32⟩
  | .local _ .vmem, ⟨1, _⟩ => ⟨S16x2x1024, .f32⟩
  | .local _ .vmem, ⟨2, _⟩ => ⟨S16x1024, .f32⟩
  | .local _ .vmem, ⟨3, _⟩ => ⟨S16x1024, .f32⟩
  | .local _ .vmem, ⟨4, _⟩ => ⟨S2x128, .f32⟩
  | .local _ .vmem, ⟨5, _⟩ => ⟨S2x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | _, _ => ⟨S64x8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_21 : BitVec 32 := 0#32
  let v51 : BitVec 1 := Scalar.cmpi .ne v50 c0_i32_21
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S64x8192x2_S64x2x8192_0_2_1 : S64x8192x2.Transposes [0, 2, 1] S64x2x8192
  transposes_S128x2_S2x128_1_0 : S128x2.Transposes [1, 0] S2x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x2x1024_S16x1x1024_0_0_0 : ∀ a, (![0, 0, 0] : Fin 3 → Nat) a + S16x1x1024.size a ≤ S16x2x1024.size a
  h_S16x1x1024 : 0 < S16x1x1024.numel
  shapeCasts_S16x1x1024_S16x1024 : S16x1x1024.ShapeCasts S16x1024
  inb_S2x128_S1x128_0_0 : ∀ a, (![0, 0] : Fin 2 → Nat) a + S1x128.size a ≤ S2x128.size a
  h_S1x128 : 0 < S1x128.numel
  shapeCasts_S1x128_S128 : S1x128.ShapeCasts S128
  shapeCasts_S128_S1x1x128 : S128.ShapeCasts S1x1x128
  shapeCasts_S16x1024_S16x1024x1 : S16x1024.ShapeCasts S16x1024x1
  broadcasts_S1x1x128_S16x1024x128 : S1x1x128.Broadcasts S16x1024x128
  broadcasts_S16x1024x1_S16x1024x128 : S16x1024x1.Broadcasts S16x1024x128
  inb_S16x2x1024_S16x1x1024_0_1_0 : ∀ a, (![0, 1, 0] : Fin 3 → Nat) a + S16x1x1024.size a ≤ S16x2x1024.size a
  inb_S2x128_S1x128_1_0 : ∀ a, (![1, 0] : Fin 2 → Nat) a + S1x128.size a ≤ S2x128.size a
  inb_S16x1024_S16x1024_0_0 : ∀ a, (![0, 0] : Fin 2 → Nat) a + S16x1024.size a ≤ S16x1024.size a
  h_S16x1024 : 0 < S16x1024.numel
  reduces_S16x1024x128_S16x128 : S16x1024x128.Reduces [1] S16x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2x1024.size a ≤ S64x2x8192.size a
  hwx0_0 : ∀ i : grid0.Coords, EltTy.bits .f32 = 32 ∨ (Rect.block (s := S64x2x8192) S16x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S64x8192.size a
  hwx0_1 : ∀ i : grid0.Coords, EltTy.bits .f32 = 32 ∨ (Rect.block (s := S64x8192) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S64x128.size a
  hwx0_4 : ∀ i : grid0.Coords, EltTy.bits .f32 = 32 ∨ (Rect.block (s := S64x128) S16x128.size (cc0_transform_4 i) (hinb0_4 i)).WholeWords (EltTy.packing .f32)

variable [Facts₀]

abbrev win0_0 : Pipeline.Window sig grid0 :=
  Pipeline.Window.ofSpec (Memref.whole main_v0) S16x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x8192x2 : Shape := ⟨3, ![64, 8192, 2]⟩
abbrev S64x8192 : Shape := ⟨2, ![64, 8192]⟩
abbrev S128x2 : Shape := ⟨2, ![128, 2]⟩
abbrev S1x128x1x2 : Shape := ⟨4, ![1, 128, 1, 2]⟩
abbrev S64x1x8192x2 : Shape := ⟨4, ![64, 1, 8192, 2]⟩
abbrev S64x128x8192x2 : Shape := ⟨4, ![64, 128, 8192, 2]⟩
abbrev S_ : Shape := ⟨0, ![]⟩
abbrev S64x128x8192 : Shape := ⟨3, ![64, 128, 8192]⟩
abbrev S64x1x8192 : Shape := ⟨3, ![64, 1, 8192]⟩
abbrev S64x128 : Shape := ⟨2, ![64, 128]⟩

abbrev nBuf : Space → Nat
  | .hbm => 22
  | .vmem => 0
  | .smem => 0
  | _ => 0

abbrev bufTy : (tb : Table) → Fin (tcTables nBuf tb) → BufTy
  | .hbm, ⟨0, _⟩ => ⟨S64x8192x2, .f32⟩
  | .hbm, ⟨1, _⟩ => ⟨S64x8192, .f32⟩
  | .hbm, ⟨2, _⟩ => ⟨S128x2, .f32⟩
  | .hbm, ⟨3, _⟩ => ⟨S128x2, .f32⟩
  | .hbm, ⟨4, _⟩ => ⟨S1x128x1x2, .f32⟩
  | .hbm, ⟨5, _⟩ => ⟨S64x1x8192x2, .f32⟩
  | .hbm, ⟨6, _⟩ => ⟨S64x128x8192x2, .f32⟩
  | .hbm, ⟨7, _⟩ => ⟨S64x128x8192x2, .f32⟩
  | .hbm, ⟨8, _⟩ => ⟨S64x128x8192x2, .f32⟩
  | .hbm, ⟨9, _⟩ => ⟨S64x128x8192x2, .f32⟩
  | .hbm, ⟨10, _⟩ => ⟨S1x128x1x2, .f32⟩
  | .hbm, ⟨11, _⟩ => ⟨S64x128x8192x2, .f32⟩
  | .hbm, ⟨12, _⟩ => ⟨S64x128x8192x2, .f32⟩
  | .hbm, ⟨13, _⟩ => ⟨S_, .f32⟩
  | .hbm, ⟨14, _⟩ => ⟨S64x128x8192, .f32⟩
  | .hbm, ⟨15, _⟩ => ⟨S64x128x8192, .f32⟩
  | .hbm, ⟨16, _⟩ => ⟨S64x128x8192, .f32⟩
  | .hbm, ⟨17, _⟩ => ⟨S64x1x8192, .f32⟩
  | .hbm, ⟨18, _⟩ => ⟨S64x128x8192, .f32⟩
  | .hbm, ⟨19, _⟩ => ⟨S64x128x8192, .f32⟩
  | .hbm, ⟨20, _⟩ => ⟨S_, .f32⟩
  | .hbm, ⟨21, _⟩ => ⟨S64x128, .f32⟩
  | _, _ => ⟨S64x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S128x2_S1x128x1x2_1_3 : S128x2.BroadcastsInDim S1x128x1x2 (![1, 3] : Fin 2 → Fin S1x128x1x2.rank)
  bcast_S64x8192x2_S64x1x8192x2_0_2_3 : S64x8192x2.BroadcastsInDim S64x1x8192x2 (![0, 2, 3] : Fin 3 → Fin S64x1x8192x2.rank)
  bcast_S1x128x1x2_S64x128x8192x2_0_1_2_3 : S1x128x1x2.BroadcastsInDim S64x128x8192x2 (![0, 1, 2, 3] : Fin 4 → Fin S64x128x8192x2.rank)
  bcast_S64x1x8192x2_S64x128x8192x2_0_1_2_3 : S64x1x8192x2.BroadcastsInDim S64x128x8192x2 (![0, 1, 2, 3] : Fin 4 → Fin S64x128x8192x2.rank)
  reducesTo_S64x128x8192x2_S64x128x8192_d3 : S64x128x8192x2.ReducesTo [3] S64x128x8192
  h_S_ : 0 < S_.numel
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  reducesTo_S64x128x8192_S64x128_d2 : S64x128x8192.ReducesTo [2] S64x128

variable [Facts₀]

class Facts : Prop extends Facts₀ where

variable [Facts]
-- ==== Proof.Pieces.lean ====
/-
  What one grid point leaves in the accumulator, as one pure function of what it loads.

  At every grid point the body computes, from the point's four input blocks and the accumulator's contents `acc`,
  the block `acc + (sum over the tile's points of the responses)` and stores it whole into the accumulator
  (`step`). The three control cases differ only in what `acc` is and in whether the result is also copied out:
    * at the first tile of a row block the accumulator is first overwritten with zeros, so `acc` is the zero block;
    * at a middle tile `acc` is what the tile before left;
    * at the last tile likewise, and the accumulator's new contents are also stored into the output block.
  Each lemma below reads the stores that the symbolic run of a case recorded back as that function: a store through
  the whole-block rectangle leaves its payload, and a load through it of what such a store left reads the payload.
  Stated for any float instance.
-/
import proofs.«154269_j43190191128605_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem hz2 : (![0, 0] : Fin 2 → Nat) = fun _ => 0 := funext fun a => by fin_cases a <;> rfl

/-- The accumulator after one grid point, from the point's input blocks (`x0`: the points' coordinates, axis-major;
    `x1`: the mask; `x2`, `x3`: centres and sharpness, axis-major) and the accumulator before it. -/
def step (x0 : Vec F S16x2x1024 .f32) (x1 : Vec F S16x1024 .f32) (x2 x3 : Vec F S2x128 .f32) (acc : Vec F S16x128 .f32) : FVec F S16x128 .f32 :=
  k0_pay1
    (k0_pay3 (View.ld x0 (Rect.unit ![0, 0, 0] S16x1x1024.size inb_S16x2x1024_S16x1x1024_0_0_0))
      (View.ld x2 (Rect.unit ![0, 0] S1x128.size inb_S2x128_S1x128_0_0))
      (View.ld x3 (Rect.unit ![0, 0] S1x128.size inb_S2x128_S1x128_0_0))
      (View.ld x0 (Rect.unit ![0, 1, 0] S16x1x1024.size inb_S16x2x1024_S16x1x1024_0_1_0))
      (View.ld x2 (Rect.unit ![1, 0] S1x128.size inb_S2x128_S1x128_1_0))
      (View.ld x3 (Rect.unit ![1, 0] S1x128.size inb_S2x128_S1x128_1_0)))
    x1 (FloatOps.ofBits .f32 0#32) acc

/-- The zero block the first tile of a row block starts from. -/
abbrev zeroBlock : FVec F S16x128 .f32 := k0_pay2

/-- First tile: the accumulator is zeroed, read back, and left at `step` of the zero block. -/
theorem acc_first (c : Dev nD) (i : grid0.Coords) (arg2 : Memref sig .tc .vmem S16x2x1024 .f32) (harg2 : arg2.IsWhole) (arg3 : Memref sig .tc .vmem S16x1024 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S16x128 .f32) (harg6 : arg6.IsWhole) (arg7 : Memref sig .tc .vmem S16x128 .f32) (harg7 : arg7.IsWhole) (hc0 : cond0_0 i) (hc1 : ¬cond0_1 i) (x0 : Vec F S16x2x1024 .f32) (x1 : Vec F S16x1024 .f32) (x2 x3 : Vec F S2x128 .f32) :
    sout0_A_0 c i arg2 harg2 arg3 harg3 arg4 harg4 arg5 harg5 arg6 harg6 arg7 harg7 hc0 hc1 x0 x1 x2 x3 = step x0 x1 x2 x3 zeroBlock := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x128) hz2, View.readCov_unit_zero (S := S16x128) _ hz2]
  simp only [View.readAt_eq_ld, harg2.read_unread, harg3.read_unread, harg4.read_unread, harg5.read_unread, harg7.read_unread,
    View.ld_unit_zero (S := S16x128) hz2, View.ld_unit_zero (S := S16x1024) hz2]
  rfl

/-- Middle tile: the accumulator is left at `step` of what it held. -/
theorem acc_middle (c : Dev nD) (i : grid0.Coords) (arg2 : Memref sig .tc .vmem S16x2x1024 .f32) (harg2 : arg2.IsWhole) (arg3 : Memref sig .tc .vmem S16x1024 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : ¬cond0_1 i) (x0 : Vec F S16x2x1024 .f32) (x1 : Vec F S16x1024 .f32) (x2 x3 : Vec F S2x128 .f32) (xs0 : Vec F S16x128 .f32) :
    sout0_B_0 c i arg2 harg2 arg3 harg3 arg4 harg4 arg5 harg5 arg6 harg6 arg7 harg7 hc0 hc1 x0 x1 x2 x3 xs0 = step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S16x128) hz2, View.ld_unit_zero (S := S16x1024) hz2]
  rfl

/-- Last tile: the accumulator is left at `step` of what it held, -/
theorem acc_last (c : Dev nD) (i : grid0.Coords) (arg2 : Memref sig .tc .vmem S16x2x1024 .f32) (harg2 : arg2.IsWhole) (arg3 : Memref sig .tc .vmem S16x1024 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i) (x0 : Vec F S16x2x1024 .f32) (x1 : Vec F S16x1024 .f32) (x2 x3 : Vec F S2x128 .f32) (xs0 : Vec F S16x128 .f32) :
    sout0_C_0 c i arg2 harg2 arg3 harg3 arg4 harg4 arg5 harg5 arg6 harg6 arg7 harg7 hc0 hc1 x0 x1 x2 x3 xs0 = step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S16x128) hz2, View.ld_unit_zero (S := S16x1024) hz2]
  rfl

/-- and the output block receives the same contents: the store into it is a load of the accumulator just stored. -/
theorem out_last (c : Dev nD) (i : grid0.Coords) (arg2 : Memref sig .tc .vmem S16x2x1024 .f32) (harg2 : arg2.IsWhole) (arg3 : Memref sig .tc .vmem S16x1024 .f32) (harg3 : arg3.IsWhole) (arg4 : Memref sig .tc .vmem S2x128 .f32) (harg4 : arg4.IsWhole) (arg5 : Memref sig .tc .vmem S2x128 .f32) (harg5 : arg5.IsWhole) (arg6 : Memref sig .tc .vmem S16x128 .f32) (harg6 : arg6.IsWhole) (arg7 : Memref sig .tc .vmem S16x128 .f32) (harg7 : arg7.IsWhole) (hc0 : ¬cond0_0 i) (hc1 : cond0_1 i) (x0 : Vec F S16x2x1024 .f32) (x1 : Vec F S16x1024 .f32) (x2 x3 : Vec F S2x128 .f32) (xs0 : Vec F S16x128 .f32) :
    out0_C_4 c i arg2 harg2 arg3 harg3 arg4 harg4 arg5 harg5 arg6 harg6 arg7 harg7 hc0 hc1 x0 x1 x2 x3 xs0 = step x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2, View.readCov_unit_zero (S := S16x128) _ hz2]
  simp only [View.readAt_eq_ld, harg2.read_unread, harg3.read_unread, harg4.read_unread, harg5.read_unread, harg7.read_unread,
    View.ld_unit_zero (S := S16x128) hz2, View.ld_unit_zero (S := S16x1024) hz2]
  rfl

end Cert.KernelIdeal.Tile

end
-- ==== Proof.Layout.lean ====
/-
  How a tile lays its operands out over the [16, 1024, 128] box of (batch row, point, centre), read at one
  index, and the sum over the points' axis of that box.

  * a coordinate plane of the points, loaded as [16, 1, 1024], is viewed as [16, 1024], then as a column stack
    [16, 1024, 1], and spread over the centres: at (r, q, n) it is the loaded entry (r, 0, q);
  * a row of the centres' (or sharpness) table, loaded as [1, 128], is viewed as [128], then as [1, 1, 128], and
    spread over rows and points: at (r, q, n) it is the loaded entry (0, n);
  * the mask [16, 1024] is viewed as [16, 1024, 1] and spread over the centres: at (r, q, n) it is the entry (r, q);
  * summing the box along its middle axis gives, at (r, n), the sum over q of the entries (r, q, n).
  A view keeps an element's row-major position; a spread reads the operand at the coordinates it has, zero on its
  unit axes.
-/
import Idealize.ShloMosaic.PureOps.Ideal.Laws
import Idealize.ShloMosaic.Lib.ValueIdx
import Idealize.ShloMosaic.Lib.Pipeline.Value

noncomputable section

namespace Cert.Rbf.Layout

open Idealize.ShloMosaic Idealize.ShloMosaic.ValueIdx

variable {α : Type}

/-- A coordinate plane of the points spread over the centres. -/
theorem plane_apply (a : (⟨3, ![16, 1, 1024]⟩ : Shape).Idx → α)
    (h1 : (⟨3, ![16, 1, 1024]⟩ : Shape).ShapeCasts ⟨2, ![16, 1024]⟩)
    (h2 : (⟨2, ![16, 1024]⟩ : Shape).ShapeCasts ⟨3, ![16, 1024, 1]⟩)
    (h3 : (⟨3, ![16, 1024, 1]⟩ : Shape).Broadcasts ⟨3, ![16, 1024, 128]⟩) (r : Fin 16) (q : Fin 1024) (n : Fin 128) :
    broadcastTo ⟨3, ![16, 1024, 128]⟩ (shapeCast ⟨3, ![16, 1024, 1]⟩ (shapeCast ⟨2, ![16, 1024]⟩ a h1) h2) h3 (ix3 r q n)
      = a (ix3 r (0 : Fin 1) q) := by
  refine (broadcastTo_apply _ h3 (ix3 r q n) (ix3 r q (0 : Fin 1)) (fun b => ?_)).trans ?_
  · match b with
    | ⟨0, _⟩ => show r.val = if (16 : Nat) = 1 then 0 else r.val; rw [if_neg (by decide)]
    | ⟨1, _⟩ => show q.val = if (1024 : Nat) = 1 then 0 else q.val; rw [if_neg (by decide)]
    | ⟨2, _⟩ => show (0 : Nat) = if (1 : Nat) = 1 then 0 else n.val; rw [if_pos rfl]
  refine (shapeCast_apply _ h2 (ix3 r q (0 : Fin 1)) (ix2 r q) ?_).trans ?_
  · rw [Shape.rowMajor_val_two, Shape.rowMajor_val_three]
    show r.val * 1024 + q.val = (r.val * 1024 + q.val) * 1 + 0
    omega
  refine shapeCast_apply a h1 (ix2 r q) (ix3 r (0 : Fin 1) q) ?_
  rw [Shape.rowMajor_val_three, Shape.rowMajor_val_two]
  show (r.val * 1 + 0) * 1024 + q.val = r.val * 1024 + q.val
  omega

/-- A table row spread over rows and points. -/
theorem row_apply (v : (⟨2, ![1, 128]⟩ : Shape).Idx → α)
    (h1 : (⟨2, ![1, 128]⟩ : Shape).ShapeCasts ⟨1, ![128]⟩)
    (h2 : (⟨1, ![128]⟩ : Shape).ShapeCasts ⟨3, ![1, 1, 128]⟩)
    (h3 : (⟨3, ![1, 1, 128]⟩ : Shape).Broadcasts ⟨3, ![16, 1024, 128]⟩) (r : Fin 16) (q : Fin 1024) (n : Fin 128) :
    broadcastTo ⟨3, ![16, 1024, 128]⟩ (shapeCast ⟨3, ![1, 1, 128]⟩ (shapeCast ⟨1, ![128]⟩ v h1) h2) h3 (ix3 r q n)
      = v (ix2 (0 : Fin 1) n) := by
  refine (broadcastTo_apply _ h3 (ix3 r q n) (ix3 (0 : Fin 1) (0 : Fin 1) n) (fun b => ?_)).trans ?_
  · match b with
    | ⟨0, _⟩ => show (0 : Nat) = if (1 : Nat) = 1 then 0 else r.val; rw [if_pos rfl]
    | ⟨1, _⟩ => show (0 : Nat) = if (1 : Nat) = 1 then 0 else q.val; rw [if_pos rfl]
    | ⟨2, _⟩ => show n.val = if (128 : Nat) = 1 then 0 else n.val; rw [if_neg (by decide)]
  refine (shapeCast_apply _ h2 (ix3 (0 : Fin 1) (0 : Fin 1) n) (ix1 n) ?_).trans ?_
  · rw [Shape.rowMajor_val_one, Shape.rowMajor_val_three]
    show n.val = (0 * 1 + 0) * 128 + n.val
    omega
  refine shapeCast_apply v h1 (ix1 n) (ix2 (0 : Fin 1) n) ?_
  rw [Shape.rowMajor_val_two, Shape.rowMajor_val_one]
  show 0 * 128 + n.val = n.val
  omega

/-- The mask spread over the centres. -/
theorem mask_apply (v : (⟨2, ![16, 1024]⟩ : Shape).Idx → α)
    (h2 : (⟨2, ![16, 1024]⟩ : Shape).ShapeCasts ⟨3, ![16, 1024, 1]⟩)
    (h3 : (⟨3, ![16, 1024, 1]⟩ : Shape).Broadcasts ⟨3, ![16, 1024, 128]⟩) (r : Fin 16) (q : Fin 1024) (n : Fin 128) :
    broadcastTo ⟨3, ![16, 1024, 128]⟩ (shapeCast ⟨3, ![16, 1024, 1]⟩ v h2) h3 (ix3 r q n) = v (ix2 r q) := by
  refine (broadcastTo_apply _ h3 (ix3 r q n) (ix3 r q (0 : Fin 1)) (fun b => ?_)).trans ?_
  · match b with
    | ⟨0, _⟩ => show r.val = if (16 : Nat) = 1 then 0 else r.val; rw [if_neg (by decide)]
    | ⟨1, _⟩ => show q.val = if (1024 : Nat) = 1 then 0 else q.val; rw [if_neg (by decide)]
    | ⟨2, _⟩ => show (0 : Nat) = if (1 : Nat) = 1 then 0 else n.val; rw [if_pos rfl]
  refine shapeCast_apply v h2 (ix3 r q (0 : Fin 1)) (ix2 r q) ?_
  rw [Shape.rowMajor_val_two, Shape.rowMajor_val_three]
  show r.val * 1024 + q.val = (r.val * 1024 + q.val) * 1 + 0
  omega

/-- The box summed along the points' axis, at the ideal values: at (r, n) the sum over q of the entries (r, q, n). -/
theorem points_sum (src : FVec Ideal ⟨3, ![16, 1024, 128]⟩ .f32) (acc : BitVec FTy.f32.bits)
    (h : (⟨3, ![16, 1024, 128]⟩ : Shape).Reduces [1] ⟨2, ![16, 128]⟩) (hφ : FKind.Formats .f32)
    (hacc : acc = FKind.add.neutral .f32 hφ) (r : Fin 16) (n : Fin 128) :
    multiReduction (F := Ideal) .add [1] ⟨2, ![16, 128]⟩ src acc h hφ hacc (ix2 r n) = ∑ q : Fin 1024, src (ix3 r q n) := by
  refine (Ideal.multiReduction_add_single src acc h hφ hacc (ix2 r n)).trans ?_
  show ∑ q : Fin 1024, src (h.lift (ix2 r n) q) = _
  refine Finset.sum_congr rfl fun q _ => congrArg src (funext fun b => Fin.ext ?_)
  show h.liftVal (ix2 r n) q.val b = (ix3 r q n b).val
  unfold Shape.Reduces.liftVal
  match b with
  | ⟨0, _⟩ => rw [dif_neg (by show ¬((0 : ℕ) = 1); omega), dif_pos (by show (0 : ℕ) < 1; omega)]
  | ⟨1, _⟩ => rw [dif_pos (by show (1 : ℕ) = 1; rfl)]
  | ⟨2, _⟩ => rw [dif_neg (by show ¬((2 : ℕ) = 1); omega), dif_neg (by show ¬((2 : ℕ) < 1); omega)]; rfl

end Cert.Rbf.Layout

end
-- ==== Proof.LibRangeSums.lean ====
/-
  Finite sums over ranges of naturals, in any additive commutative monoid.

  A function of an index below N is extended by zero to every natural (`extRow`), so that positions inside blocks can be
  named by arithmetic on naturals; a range sum of length a·b splits into a blocks of length b (`sum_range_mul`); a sum
  over `Fin b` of a function of the underlying natural is the range sum (`sum_fin_nat`). Nothing here mentions a
  program: the lemmas serve any proof that regroups a long sum into tiles.
-/
import Mathlib

noncomputable section

namespace Cert.SumLaws

open Finset

variable {M : Type*} [AddCommMonoid M]

/-- A function of an index below `N`, extended by zero to every natural. -/
def extRow {N : ℕ} (f : Fin N → M) (n : ℕ) : M := if h : n < N then f ⟨n, h⟩ else 0

/-- Below `N` the extension is the function. -/
theorem extRow_of_lt {N : ℕ} (f : Fin N → M) (n : ℕ) (h : n < N) : extRow f n = f ⟨n, h⟩ := dif_pos h

/-- Summed over the first `N` naturals the extension is the sum over the indices. -/
theorem sum_range_extRow {N : ℕ} (f : Fin N → M) : ∑ n ∈ range N, extRow f n = ∑ n : Fin N, f n := by
  rw [Finset.sum_fin_eq_sum_range]
  rfl

/-- A range sum of length `a * b`, block by block: block `p` holds the positions `p * b + q`, `q < b`. -/
theorem sum_range_mul (a b : ℕ) (f : ℕ → M) :
    ∑ n ∈ range (a * b), f n = ∑ p ∈ range a, ∑ q ∈ range b, f (p * b + q) := by
  induction a with
  | zero => simp
  | succ a ih =>
    rw [Nat.succ_mul, Finset.sum_range_add, ih, Finset.sum_range_succ]

/-- A sum over `Fin b` of a function of the underlying natural is the range sum. -/
theorem sum_fin_nat (b : ℕ) (f : ℕ → M) : ∑ q : Fin b, f q.val = ∑ q ∈ range b, f q :=
  Fin.sum_univ_eq_sum_range f b

end Cert.SumLaws

end
-- ==== Proof.Spec.lean ====
/-
  The mathematics of the radial-basis layer, with no program in sight.

  For a batch row `b`, a centre `n` and a point `p` the response is
      exp (−((c n 0 − x b p 0)² · s n 0 + (c n 1 − x b p 1)² · s n 1)) · mask b p,
  and the layer's output at `(b, n)` is the sum of the responses over all 8192 points (`layer`).

  Two facts are proved here. First, the response written the way a tile computes it — each axis adds
  `(s · (c − x)) · (c − x)` onto a zero and the sign is changed by subtracting from zero — is the same extended
  real: multiplication of extended reals is commutative and associative, zero is neutral for addition and
  `0 − y = −y`; no finiteness is needed. Second, the 8192 points split into 8 consecutive tiles of 1024, so the
  sum over all points is the sum over the tiles of each tile's sum (`sum_tiles`): a regrouping of a finite sum in
  a commutative monoid.
-/
import Idealize.ShloMosaic.PureOps.Ideal
import Idealize.ShloMosaic.PureOps.Ideal.Laws
import Idealize.ShloMosaic.Lib.ValueIdx
import proofs.«154269_j43190191128605_2_alg».proof.Proof.LibRangeSums

noncomputable section

namespace Cert.Rbf

open Idealize.ShloMosaic Idealize.ShloMosaic.ValueIdx Finset

/-- The exponent-and-mask of one point against one centre, from the six numbers it depends on and the mask. -/
def respOf (c0 s0 x0 c1 s1 x1 nd : EReal) : EReal :=
  Ideal.exp (-((c0 - x0) * (c0 - x0) * s0 + (c1 - x1) * (c1 - x1) * s1)) * nd

/-- The same number as a tile computes it: the distance accumulated from a zero, axis by axis, each axis as
    `(s · (c − x)) · (c − x)`, and the sign changed by subtracting from zero. -/
theorem tile_form (c0 s0 x0 c1 s1 x1 nd : EReal) :
    Ideal.exp (0 - ((0 + s0 * (c0 - x0) * (c0 - x0)) + s1 * (c1 - x1) * (c1 - x1))) * nd
      = respOf c0 s0 x0 c1 s1 x1 nd := by
  unfold respOf
  rw [zero_add, sub_eq_add_neg, zero_add]
  have e0 : s0 * (c0 - x0) * (c0 - x0) = (c0 - x0) * (c0 - x0) * s0 := by ac_rfl
  have e1 : s1 * (c1 - x1) * (c1 - x1) = (c1 - x1) * (c1 - x1) * s1 := by ac_rfl
  rw [e0, e1]

variable (x : (⟨3, ![64, 8192, 2]⟩ : Shape).Idx → EReal) (nd : (⟨2, ![64, 8192]⟩ : Shape).Idx → EReal)
  (c s : (⟨2, ![128, 2]⟩ : Shape).Idx → EReal)

/-- The response of point `p` of batch row `b` to centre `n`. -/
def resp (b : Fin 64) (n : Fin 128) (p : Fin 8192) : EReal :=
  respOf (c (ix2 n 0)) (s (ix2 n 0)) (x (ix3 b p 0)) (c (ix2 n 1)) (s (ix2 n 1)) (x (ix3 b p 1)) (nd (ix2 b p))

/-- The layer: at `(b, n)` the sum over all points of the responses. -/
def layer : (⟨2, ![64, 128]⟩ : Shape).Idx → EReal := fun i => ∑ p : Fin 8192, resp x nd c s (i 0) (i 1) p

/-- The sum of the responses over tile `j` of the points: positions `1024 j … 1024 j + 1023`. -/
def tileSum (b : Fin 64) (n : Fin 128) (j : Fin 8) : EReal :=
  ∑ q : Fin 1024, resp x nd c s b n ⟨1024 * j.val + q.val, by have := j.isLt; have := q.isLt; omega⟩

/-- What grid point `t` (row block `t / 8`, tile `t % 8`) adds at `(r, n)` of its 16-row block. A function of every
    natural `t`; only `t < 32` is ever used. -/
def addend (t : ℕ) (i : (⟨2, ![16, 128]⟩ : Shape).Idx) : EReal :=
  tileSum x nd c s ⟨(16 * (t / 8) + (i 0).val) % 64, Nat.mod_lt _ (by decide)⟩ (i 1) ⟨t % 8, Nat.mod_lt _ (by decide)⟩

/-- The eight tiles of a row block together are the whole sum over the points. -/
theorem sum_tiles (g : Fin 4) (r : Fin 16) (n : Fin 128) :
    ∑ k ∈ range 8, addend x nd c s (8 * g.val + k) (ix2 r n)
      = layer x nd c s (ix2 ⟨16 * g.val + r.val, by have := g.isLt; have := r.isLt; omega⟩ n) := by
  have hg := g.isLt
  have hr := r.isLt
  unfold layer
  show _ = ∑ p : Fin 8192, resp x nd c s ⟨16 * g.val + r.val, _⟩ n p
  rw [← Cert.SumLaws.sum_range_extRow]
  refine Eq.trans ?_ (Cert.SumLaws.sum_range_mul 8 1024 _).symm
  refine Finset.sum_congr rfl fun k hk => ?_
  have hk8 : k < 8 := Finset.mem_range.mp hk
  unfold addend tileSum
  rw [← Cert.SumLaws.sum_fin_nat 1024 (fun q => Cert.SumLaws.extRow (fun p => resp x nd c s ⟨16 * g.val + r.val, by omega⟩ n p) (k * 1024 + q))]
  refine Finset.sum_congr rfl fun q _ => ?_
  have hq := q.isLt
  rw [Cert.SumLaws.extRow_of_lt _ _ (by omega)]
  have hb : (⟨(16 * ((8 * g.val + k) / 8) + ((ix2 r n : (⟨2, ![16, 128]⟩ : Shape).Idx) 0).val) % 64, Nat.mod_lt _ (by decide)⟩ : Fin 64)
      = ⟨16 * g.val + r.val, by omega⟩ := Fin.ext (by show (16 * ((8 * g.val + k) / 8) + r.val) % 64 = 16 * g.val + r.val; omega)
  have hp : (⟨1024 * (⟨(8 * g.val + k) % 8, Nat.mod_lt _ (by decide)⟩ : Fin 8).val + q.val, by omega⟩ : Fin 8192)
      = ⟨k * 1024 + q.val, by omega⟩ := Fin.ext (by show 1024 * ((8 * g.val + k) % 8) + q.val = k * 1024 + q.val; omega)
  rw [hb, hp]

end Cert.Rbf

end
-- ==== Proof.TileValue.lean ====
/-
  One grid point's update of the accumulator, read at one entry at the ideal values.

  At entry (r, n) of the 16 × 128 accumulator block a grid point adds the sum, over the 1024 points q of its tile,
  of the response of point q of row r to centre n: the exponential of zero minus the distance accumulated from a
  zero over the two coordinate planes, times the mask. Written with the loaded blocks: the centres' and the
  sharpness blocks are axis-major ((d, n)), the points' block is (r, d, q), the mask's (r, q). With `Spec`'s
  `tile_form` each summand is the layer's response `respOf`.
-/
import proofs.«154269_j43190191128605_2_alg».proof.Proof.Pieces
import proofs.«154269_j43190191128605_2_alg».proof.Proof.Layout
import proofs.«154269_j43190191128605_2_alg».proof.Proof.Spec

noncomputable section

open Idealize.ShloMosaic Idealize.ShloMosaic.TcCoe Idealize.SL.Sem Idealize.ShloMosaic.ValueIdx

namespace Cert.KernelIdeal.Tile

open Cert.KernelIdeal Cert.KernelIdeal.Gen Cert.Rbf

/-- The accumulated distance at (r, q, n): from a zero, one term `(s · (c − x)) · (c − x)` per coordinate plane. -/
theorem dist_apply (a0 : Vec Ideal S16x1x1024 .f32) (c0 s0 : Vec Ideal S1x128 .f32) (a1 : Vec Ideal S16x1x1024 .f32)
    (c1 s1 : Vec Ideal S1x128 .f32) (r : Fin 16) (q : Fin 1024) (n : Fin 128) :
    k0_pay3 (F := Ideal) a0 c0 s0 a1 c1 s1 (ix3 r q n)
      = (Ideal.ofBits .f32 0x00000000#32
          + s0 (ix2 (0 : Fin 1) n) * (c0 (ix2 (0 : Fin 1) n) - a0 (ix3 r (0 : Fin 1) q)) * (c0 (ix2 (0 : Fin 1) n) - a0 (ix3 r (0 : Fin 1) q)))
        + s1 (ix2 (0 : Fin 1) n) * (c1 (ix2 (0 : Fin 1) n) - a1 (ix3 r (0 : Fin 1) q)) * (c1 (ix2 (0 : Fin 1) n) - a1 (ix3 r (0 : Fin 1) q)) := by
  rw [← Layout.row_apply c0 shapeCasts_S1x128_S128 shapeCasts_S128_S1x1x128 broadcasts_S1x1x128_S16x1024x128 r q n,
    ← Layout.row_apply s0 shapeCasts_S1x128_S128 shapeCasts_S128_S1x1x128 broadcasts_S1x1x128_S16x1024x128 r q n,
    ← Layout.row_apply c1 shapeCasts_S1x128_S128 shapeCasts_S128_S1x1x128 broadcasts_S1x1x128_S16x1024x128 r q n,
    ← Layout.row_apply s1 shapeCasts_S1x128_S128 shapeCasts_S128_S1x1x128 broadcasts_S1x1x128_S16x1024x128 r q n,
    ← Layout.plane_apply a0 shapeCasts_S16x1x1024_S16x1024 shapeCasts_S16x1024_S16x1024x1 broadcasts_S16x1024x1_S16x1024x128 r q n,
    ← Layout.plane_apply a1 shapeCasts_S16x1x1024_S16x1024 shapeCasts_S16x1024_S16x1024x1 broadcasts_S16x1024x1_S16x1024x128 r q n]
  rfl

/-- A load of coordinate plane 0 of the points' block reads the block's entries (r, 0, q); -/
theorem ld_plane0 {Val : EltTy → Type} {e : EltTy} (x0 : S16x2x1024.Idx → Val e) (r : Fin 16) (q : Fin 1024) :
    View.ld x0 (Rect.unit ![0, 0, 0] S16x1x1024.size inb_S16x2x1024_S16x1x1024_0_0_0) (ix3 r (0 : Fin 1) q) = x0 (ix3 r (0 : Fin 2) q) :=
  congrArg x0 (funext fun a => Fin.ext (by
    match a with
    | ⟨0, _⟩ => show 0 + 1 * r.val = r.val; omega
    | ⟨1, _⟩ => show 0 + 1 * 0 = 0; rfl
    | ⟨2, _⟩ => show 0 + 1 * q.val = q.val; omega))

/-- of plane 1, the entries (r, 1, q). -/
theorem ld_plane1 {Val : EltTy → Type} {e : EltTy} (x0 : S16x2x1024.Idx → Val e) (r : Fin 16) (q : Fin 1024) :
    View.ld x0 (Rect.unit ![0, 1, 0] S16x1x1024.size inb_S16x2x1024_S16x1x1024_0_1_0) (ix3 r (0 : Fin 1) q) = x0 (ix3 r (1 : Fin 2) q) :=
  congrArg x0 (funext fun a => Fin.ext (by
    match a with
    | ⟨0, _⟩ => show 0 + 1 * r.val = r.val; omega
    | ⟨1, _⟩ => show 1 + 1 * 0 = 1; rfl
    | ⟨2, _⟩ => show 0 + 1 * q.val = q.val; omega))

/-- A load of row 0 of a table's block reads the block's entries (0, n); -/
theorem ld_row0 {Val : EltTy → Type} {e : EltTy} (v : S2x128.Idx → Val e) (n : Fin 128) :
    View.ld v (Rect.unit ![0, 0] S1x128.size inb_S2x128_S1x128_0_0) (ix2 (0 : Fin 1) n) = v (ix2 (0 : Fin 2) n) :=
  congrArg v (funext fun a => Fin.ext (by
    match a with
    | ⟨0, _⟩ => show 0 + 1 * 0 = 0; rfl
    | ⟨1, _⟩ => show 0 + 1 * n.val = n.val; omega))

/-- of row 1, the entries (1, n). -/
theorem ld_row1 {Val : EltTy → Type} {e : EltTy} (v : S2x128.Idx → Val e) (n : Fin 128) :
    View.ld v (Rect.unit ![1, 0] S1x128.size inb_S2x128_S1x128_1_0) (ix2 (0 : Fin 1) n) = v (ix2 (1 : Fin 2) n) :=
  congrArg v (funext fun a => Fin.ext (by
    match a with
    | ⟨0, _⟩ => show 1 + 1 * 0 = 1; rfl
    | ⟨1, _⟩ => show 0 + 1 * n.val = n.val; omega))

/-- One grid point's update at entry (r, n): the accumulator's entry plus the tile's sum of responses. -/
theorem step_apply (x0 : Vec Ideal S16x2x1024 .f32) (x1 : Vec Ideal S16x1024 .f32) (x2 x3 : Vec Ideal S2x128 .f32)
    (acc : Vec Ideal S16x128 .f32) (r : Fin 16) (n : Fin 128) :
    step (F := Ideal) x0 x1 x2 x3 acc (ix2 r n)
      = acc (ix2 r n) + ∑ q : Fin 1024, respOf (x2 (ix2 (0 : Fin 2) n)) (x3 (ix2 (0 : Fin 2) n)) (x0 (ix3 r (0 : Fin 2) q))
          (x2 (ix2 (1 : Fin 2) n)) (x3 (ix2 (1 : Fin 2) n)) (x0 (ix3 r (1 : Fin 2) q)) (x1 (ix2 r q)) := by
  unfold step k0_pay1
  refine (congrFun (shapeCast_self _ _) _).trans ?_
  refine congrArg (acc (ix2 r n) + ·) ?_
  refine (Layout.points_sum _ _ _ _ _ r n).trans ?_
  refine Finset.sum_congr rfl fun q _ => ?_
  have hd := dist_apply (View.ld x0 (Rect.unit ![0, 0, 0] S16x1x1024.size inb_S16x2x1024_S16x1x1024_0_0_0))
    (View.ld x2 (Rect.unit ![0, 0] S1x128.size inb_S2x128_S1x128_0_0))
    (View.ld x3 (Rect.unit ![0, 0] S1x128.size inb_S2x128_S1x128_0_0))
    (View.ld x0 (Rect.unit ![0, 1, 0] S16x1x1024.size inb_S16x2x1024_S16x1x1024_0_1_0))
    (View.ld x2 (Rect.unit ![1, 0] S1x128.size inb_S2x128_S1x128_1_0))
    (View.ld x3 (Rect.unit ![1, 0] S1x128.size inb_S2x128_S1x128_1_0)) r q n
  rw [ld_plane0, ld_plane1, ld_row0 x2, ld_row0 x3, ld_row1 x2, ld_row1 x3] at hd
  have hm := Layout.mask_apply x1 shapeCasts_S16x1024_S16x1024x1 broadcasts_S16x1024x1_S16x1024x128 r q n
  refine Eq.trans (congrArg₂ (fun d w => Ideal.exp (Ideal.ofBits .f32 0x00000000#32 - d) * w) hd hm) ?_
  rw [Ideal.ofBits_zero_f32]
  exact tile_form _ _ _ _ _ _ _

end Cert.KernelIdeal.Tile

end
-- ==== Proof.Blocks.lean ====
/-
  Which entries of the argument arrays a grid point's input blocks hold.

  The grid is 4 row blocks by 8 tiles, walked tile-fastest: point `t` is row block `t / 8`, tile `t % 8`. Before the
  region the points' array is transposed to [64, 2, 8192] (coordinate axis before the points' axis) and the two
  tables to [2, 128]. So at point `t`:
    * the points' block (r, d, q) is coordinate `d` of point `1024·(t % 8) + q` of batch row `16·(t / 8) + r`;
    * the mask's block (r, q) is the mask of that point of that row;
    * the tables' blocks are the whole transposed tables: entry (d, n) is the table's (n, d).
  A block's element sits at block index × block size + its coordinate inside the block, on every axis.
-/
import proofs.«154269_j43190191128605_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps over the grid: row block `t / 8`, tile `t % 8`; the tables' blocks do not move. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = t.val / 8 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

/-- The region finds the points' array transposed, -/
theorem V_points (c : Dev nD) : (V m c main_v0 : S64x2x8192.Idx → Elt F .f32)
    = transpose S64x2x8192 [0, 2, 1] (m ((c : Thread nD τ).loc main_arg0)) transposes_S64x8192x2_S64x2x8192_0_2_1 := by
  dsimp only [V, hostOps0]; after_results

/-- the centres' table transposed, -/
theorem V_centres (c : Dev nD) : (V m c main_v1 : S2x128.Idx → Elt F .f32)
    = transpose S2x128 [1, 0] (m ((c : Thread nD τ).loc main_arg2)) transposes_S128x2_S2x128_1_0 := by
  dsimp only [V, hostOps0]; after_results

/-- and the sharpness table transposed. -/
theorem V_sharp (c : Dev nD) : (V m c main_v2 : S2x128.Idx → Elt F .f32)
    = transpose S2x128 [1, 0] (m ((c : Thread nD τ).loc main_arg3)) transposes_S128x2_S2x128_1_0 := by
  dsimp only [V, hostOps0]; after_results

/-- The points' block at point `t`. -/
theorem points_block (c : Dev nD) (t : Fin cfg0.N) (r : Fin 16) (d : Fin 2) (q : Fin 1024) (b : Fin 64) (p : Fin 8192)
    (hb : b.val = 16 * (t.val / 8) + r.val) (hp : p.val = 1024 * (t.val % 8) + q.val) :
    (iblk m c 0 t : Vec F S16x2x1024 .f32) (ix3 r d q) = m ((c : Thread nD τ).loc main_arg0) (ix3 b p d) := by
  obtain ⟨e0, e1, e2, -⟩ := idx_facts t
  unfold iblk
  rw [View.read_apply]
  show V m c main_v0 _ = _
  rw [V_points]
  refine transpose_apply _ _ _ _ _ (fun a => ?_)
  match a with
  | ⟨0, _⟩ => show b.val = win0_0.index t (0 : Fin 3) * 16 + 1 * r.val; rw [e0, hb]; omega
  | ⟨1, _⟩ => show d.val = win0_0.index t (1 : Fin 3) * 2 + 1 * d.val; rw [e1]; omega
  | ⟨2, _⟩ => show p.val = win0_0.index t (2 : Fin 3) * 1024 + 1 * q.val; rw [e2, hp]; omega

/-- The mask's block at point `t`. -/
theorem mask_block (c : Dev nD) (t : Fin cfg0.N) (r : Fin 16) (q : Fin 1024) (b : Fin 64) (p : Fin 8192)
    (hb : b.val = 16 * (t.val / 8) + r.val) (hp : p.val = 1024 * (t.val % 8) + q.val) :
    (iblk m c 1 t : Vec F S16x1024 .f32) (ix2 r q) = m ((c : Thread nD τ).loc main_arg1) (ix2 b p) := by
  obtain ⟨-, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 16 + 1 * r.val = b.val; rw [e0, hb]; omega
  | ⟨1, _⟩ => show win0_1.index t (1 : Fin 2) * 1024 + 1 * q.val = p.val; rw [e1, hp]; omega

/-- The centres' block at any point: the transposed table. -/
theorem centres_block (c : Dev nD) (t : Fin cfg0.N) (d : Fin 2) (n : Fin 128) :
    (iblk m c 2 t : Vec F S2x128 .f32) (ix2 d n) = m ((c : Thread nD τ).loc main_arg2) (ix2 n d) := by
  obtain ⟨-, -, -, -, -, e0, e1, -⟩ := idx_facts t
  unfold iblk
  rw [View.read_apply]
  show V m c main_v1 _ = _
  rw [V_centres]
  refine transpose_apply _ _ _ _ _ (fun a => ?_)
  match a with
  | ⟨0, _⟩ => show d.val = win0_2.index t (0 : Fin 2) * 2 + 1 * d.val; rw [e0]; omega
  | ⟨1, _⟩ => show n.val = win0_2.index t (1 : Fin 2) * 128 + 1 * n.val; rw [e1]; omega

/-- The sharpness block at any point: the transposed table. -/
theorem sharp_block (c : Dev nD) (t : Fin cfg0.N) (d : Fin 2) (n : Fin 128) :
    (iblk m c 3 t : Vec F S2x128 .f32) (ix2 d n) = m ((c : Thread nD τ).loc main_arg3) (ix2 n d) := by
  obtain ⟨-, -, -, -, -, -, -, e0, e1, -⟩ := idx_facts t
  unfold iblk
  rw [View.read_apply]
  show V m c main_v2 _ = _
  rw [V_sharp]
  refine transpose_apply _ _ _ _ _ (fun a => ?_)
  match a with
  | ⟨0, _⟩ => show d.val = win0_3.index t (0 : Fin 2) * 2 + 1 * d.val; rw [e0]; omega
  | ⟨1, _⟩ => show n.val = win0_3.index t (1 : Fin 2) * 128 + 1 * n.val; rw [e1]; omega

end Cert.KernelIdeal.Blocks

end
-- ==== Proof.Accum.lean ====
/-
  What the accumulator holds after each grid point, at the ideal values.

  Grid point `t` is tile `t % 8` of row block `t / 8`. At entry (r, n) a point adds its tile's sum of responses
  (`Rbf.addend` of the argument arrays: the point's blocks are entries of those arrays) to what the accumulator
  held — the zero block at the first tile of a row block, what the tile before left at the others. So after point
  `t` the accumulator's entry is zero plus the sum of the addends of tiles `0 … t % 8` of its row block: the fold
  over a run of points, unrolled at one entry as a sum over a range.
-/
import proofs.«154269_j43190191128605_2_alg».proof.Proof.TileValue
import proofs.«154269_j43190191128605_2_alg».proof.Proof.Blocks
import proofs.«154269_j43190191128605_2_alg».proof.Proof.Gen.KernelIdeal.Value

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Value Cert.Rbf

variable (m : (ℓ : Loc nD τ sig) → Buf (Elt Ideal) ℓ)

/-- The zero block is zero at every entry. -/
theorem zeroBlock_apply (i : S16x128.Idx) : (Tile.zeroBlock (F := Ideal)) i = 0 := by
  unfold Tile.zeroBlock k0_pay2
  refine (congrFun (shapeCast_self _ _) i).trans ?_
  exact Ideal.ofBits_zero_f32

/-- One grid point's update at entry (r, n), over the argument arrays: the accumulator's entry plus the point's addend. -/
theorem step_at (c : Dev nD) (t : Fin cfg0.N) (acc : Vec Ideal S16x128 .f32) (r : Fin 16) (n : Fin 128) :
    Tile.step (iblk m c 0 t) (iblk m c 1 t) (iblk m c 2 t) (iblk m c 3 t) acc (ix2 r n)
      = acc (ix2 r n) + addend (m ((c : Thread nD τ).loc main_arg0)) (m ((c : Thread nD τ).loc main_arg1)) (m ((c : Thread nD τ).loc main_arg2)) (m ((c : Thread nD τ).loc main_arg3)) t.val (ix2 r n) := by
  have hN : t.val < 32 := lt_of_lt_of_eq t.isLt (show cfg0.N = 32 from N_0)
  have hr := r.isLt
  refine (Tile.step_apply (iblk m c 0 t) (iblk m c 1 t) (iblk m c 2 t) (iblk m c 3 t) acc r n).trans ?_
  refine congrArg (acc (ix2 r n) + ·) ?_
  unfold addend tileSum
  refine Finset.sum_congr rfl fun q _ => ?_
  have hq := q.isLt
  have hb : ((⟨(16 * (t.val / 8) + r.val) % 64, Nat.mod_lt _ (by decide)⟩ : Fin 64)).val = 16 * (t.val / 8) + r.val := by
    show (16 * (t.val / 8) + r.val) % 64 = _; omega
  have hp : ((⟨1024 * (t.val % 8) + q.val, by omega⟩ : Fin 8192)).val = 1024 * (t.val % 8) + q.val := rfl
  have e0a := Blocks.points_block m c t r 0 q _ _ hb hp
  have e0b := Blocks.points_block m c t r 1 q _ _ hb hp
  have e1 := Blocks.mask_block m c t r q _ _ hb hp
  have e2a := Blocks.centres_block m c t 0 n
  have e2b := Blocks.centres_block m c t 1 n
  have e3a := Blocks.sharp_block m c t 0 n
  have e3b := Blocks.sharp_block m c t 1 n
  rw [e0a, e0b, e1, e2a, e2b, e3a, e3b]
  rfl

/-- At the first tile of a row block the accumulator restarts from the zero block, whatever it held. -/
theorem first_at (c : Dev nD) (t : Fin cfg0.N) (h0 : t.val % 8 = 0) (h1 : ¬t.val % 8 = 7) (acc : Vec Ideal S16x128 .f32) :
    scAt0_0 m c t.val t.isLt acc = Tile.step (iblk m c 0 t) (iblk m c 1 t) (iblk m c 2 t) (iblk m c 3 t) (Tile.zeroBlock (F := Ideal)) := by
  unfold scAt0_0
  rw [dif_pos h0, dif_neg h1]
  exact Tile.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other tile it continues from what the tile before left. -/
theorem later_at (c : Dev nD) (t : Fin cfg0.N) (h0 : ¬t.val % 8 = 0) (acc : Vec Ideal S16x128 .f32) :
    scAt0_0 m c t.val t.isLt acc = Tile.step (iblk m c 0 t) (iblk m c 1 t) (iblk m c 2 t) (iblk m c 3 t) acc := by
  unfold scAt0_0
  rw [dif_neg h0]
  by_cases h1 : t.val % 8 = 7
  · rw [dif_pos h1]
    exact Tile.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) acc
  · rw [dif_neg h1]
    exact Tile.acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) acc

/-- The accumulator after point `t`, at entry (r, n): the addends of tiles `0 … t % 8` of the point's row block. -/
theorem acc_after (c : Dev nD) (t : Fin cfg0.N) (r : Fin 16) (n : Fin 128) :
    (outsAt0 m c t.val t.isLt).2 (ix2 r n)
      = 0 + ∑ k ∈ Finset.range (t.val % 8 + 1), addend (m ((c : Thread nD τ).loc main_arg0)) (m ((c : Thread nD τ).loc main_arg1)) (m ((c : Thread nD τ).loc main_arg2)) (m ((c : Thread nD τ).loc main_arg3)) (8 * (t.val / 8) + k) (ix2 r n) := by
  rw [soutsAt0_0_eq m c t]
  refine Pipeline.accAt_add_apply (fun n h => scAt0_0 m c n h (VS0_0.read (Elt Ideal) VS0_0.junk)) (scAt0_0 m c)
    (fun _ => (0 : EReal)) (fun k => addend (m ((c : Thread nD τ).loc main_arg0)) (m ((c : Thread nD τ).loc main_arg1)) (m ((c : Thread nD τ).loc main_arg2)) (m ((c : Thread nD τ).loc main_arg3)) k) (8 * (t.val / 8)) 7 ?_ ?_ (t.val % 8) (by omega) _ (ix2 r n)
  · intro h i
    obtain ⟨r', n', rfl⟩ : ∃ (r' : Fin 16) (n' : Fin 128), i = ix2 r' n' := ⟨i 0, i 1, eq_ix2 i⟩
    rw [first_at m c ⟨8 * (t.val / 8), h⟩ (by show 8 * (t.val / 8) % 8 = 0; omega) (by show ¬8 * (t.val / 8) % 8 = 7; omega),
      step_at m c ⟨8 * (t.val / 8), h⟩ (Tile.zeroBlock (F := Ideal)) r' n', zeroBlock_apply]
  · intro k h acc i hlo hhi
    obtain ⟨r', n', rfl⟩ : ∃ (r' : Fin 16) (n' : Fin 128), i = ix2 r' n' := ⟨i 0, i 1, eq_ix2 i⟩
    rw [later_at m c ⟨k, h⟩ (by show ¬k % 8 = 0; omega) acc, step_at m c ⟨k, h⟩ acc r' n']

end Cert.KernelIdeal.Acc

end
-- ==== Proof.Final.lean ====
/-
  The result array after the run, at the ideal values: the layer of the argument arrays.

  The output block of row block g is written back once, after the last tile (grid points 8g + 7). There the
  body has just copied the accumulator into the output block, and the accumulator holds zero plus the addends of
  all eight tiles of the row block, which together are the whole sum over the points (`Rbf.sum_tiles`). The four
  write-backs tile the 64 rows, so the array ends holding the layer everywhere.
-/
import proofs.«154269_j43190191128605_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Value Cert.Rbf

variable (m : (ℓ : Loc nD τ sig) → Buf (Elt Ideal) ℓ) (ρ : Dev nD → PrngReg)

/-- The layer of the argument arrays, as contents of the result array. -/
abbrev result (c : Dev nD) : Buf (Elt Ideal) ((c : Thread nD τ).loc main_v3) :=
  layer (m ((c : Thread nD τ).loc main_arg0)) (m ((c : Thread nD τ).loc main_arg1)) (m ((c : Thread nD τ).loc main_arg2)) (m ((c : Thread nD τ).loc main_arg3))

/-- At the last tile of a row block the output block receives exactly what the accumulator is left holding. -/
theorem out_eq_acc (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Tile.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).trans
    (Tile.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).symm

/-- What a write-back writes is the layer's block of rows `16·(t / 8) … 16·(t / 8) + 15`. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have h0 : ¬t.val % 8 = 0 := by omega
  have hN : t.val < 32 := lt_of_lt_of_eq t.isLt (show cfg0.N = 32 from N_0)
  have hg : t.val / 8 < 4 := by omega
  obtain ⟨-, -, -, -, -, -, -, -, -, e0, e1⟩ := Blocks.idx_facts t
  rw [flushed4 m c t, out_eq_acc m c t h0 h1]
  refine funext fun (y : S16x128.Idx) => ?_
  obtain ⟨r, n, rfl⟩ : ∃ (r : Fin 16) (n : Fin 128), y = ix2 r n := ⟨y 0, y 1, eq_ix2 y⟩
  show (outsAt0 m c t.val t.isLt).2 (ix2 r n) = result m c (((cfg0.win 4).blk t).view.emb (ix2 r n))
  rw [Acc.acc_after m c t r n, zero_add, h1]
  refine (sum_tiles (m ((c : Thread nD τ).loc main_arg0)) (m ((c : Thread nD τ).loc main_arg1)) (m ((c : Thread nD τ).loc main_arg2)) (m ((c : Thread nD τ).loc main_arg3)) ⟨t.val / 8, hg⟩ r n).trans ?_
  refine congrArg (layer (m ((c : Thread nD τ).loc main_arg0)) (m ((c : Thread nD τ).loc main_arg1)) (m ((c : Thread nD τ).loc main_arg2)) (m ((c : Thread nD τ).loc main_arg3))) (funext fun a => Fin.ext ?_)
  have hr := r.isLt
  match a with
  | ⟨0, _⟩ => show 16 * (t.val / 8) + r.val = win0_4.index t (0 : Fin 2) * 16 + 1 * r.val; rw [e0]; omega
  | ⟨1, _⟩ => show n.val = win0_4.index t (1 : Fin 2) * 128 + 1 * n.val; rw [e1]; omega

/-- An index of the array is in point `t`'s block iff each coordinate is in the block's range on its axis. -/
theorem mem_blk (t : Fin cfg0.N) (i : S64x128.Idx) :
    i ∈ ((cfg0.win 4).blk t).view.set ↔ ∀ a : Fin 2, win0_4.index t a * S16x128.size a ≤ (i a).val ∧ (i a).val < win0_4.index t a * S16x128.size a + S16x128.size a := by
  show i ∈ ((View.whole main_v3).slice (win0_4.rect t)).set ↔ _
  rw [View.set_slice_whole, Rect.mem_set_unit]
  exact Iff.rfl

/-- The array after the run: row `b` is written by the last tile of row block `b / 16`. -/
theorem final (c : Dev nD) : (dats m 0 c).arrAt 4 cfg0.N = result m c :=
  (dats m 0 c).arrAt_eq_of_cover 4 (result m c) (flushed_eq m c) fun (i : S64x128.Idx) => by
    have hi0 : (i 0).val < 64 := (i 0).isLt
    have hi1 : (i 1).val < 128 := (i 1).isLt
    have hN : cfg0.N = 32 := N_0
    have ht : 8 * ((i 0).val / 16) + 7 < cfg0.N := by omega
    obtain ⟨-, -, -, -, -, -, -, -, -, e0, e1⟩ := Blocks.idx_facts ⟨8 * ((i 0).val / 16) + 7, ht⟩
    refine ⟨⟨8 * ((i 0).val / 16) + 7, ht⟩, (flush0_4 _).mpr (by show (8 * ((i 0).val / 16) + 7) % 8 = 7; omega), ?_⟩
    rw [mem_blk]
    intro a
    match a with
    | ⟨0, _⟩ =>
      show win0_4.index ⟨8 * ((i 0).val / 16) + 7, ht⟩ (0 : Fin 2) * 16 ≤ (i 0).val ∧ (i 0).val < win0_4.index ⟨8 * ((i 0).val / 16) + 7, ht⟩ (0 : Fin 2) * 16 + 16
      rw [e0]
      show (8 * ((i 0).val / 16) + 7) / 8 * 16 ≤ (i 0).val ∧ (i 0).val < (8 * ((i 0).val / 16) + 7) / 8 * 16 + 16
      omega
    | ⟨1, _⟩ =>
      show win0_4.index ⟨8 * ((i 0).val / 16) + 7, ht⟩ (1 : Fin 2) * 128 ≤ (i 1).val ∧ (i 1).val < win0_4.index ⟨8 * ((i 0).val / 16) + 7, ht⟩ (1 : Fin 2) * 128 + 128
      rw [e1]
      omega

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.RefValue.lean ====
/-
  The reference computes the layer.

  Its eighteen operations, read one at a time at an index: the centres and the sharpness are spread to
  [64, 128, 8192, 2], the points likewise, the squared differences are weighted and summed over the coordinate axis
  from a zero, negated, exponentiated, multiplied by the mask spread over the centres, and summed over the points
  from a zero. At (b, n) that is the sum over p of the response of point p of row b to centre n.
-/
import proofs.«154269_j43190191128605_2_alg».proof.Proof.Gen.ReferenceIdeal.Read
import proofs.«154269_j43190191128605_2_alg».proof.Proof.Spec

noncomputable section

open Idealize.ShloMosaic Idealize.ShloMosaic.ValueIdx

namespace Cert.ReferenceIdeal.RefValue

open Cert.ReferenceIdeal Cert.ReferenceIdeal.Read Cert.Rbf

/-- Through the two spreads and the two reductions, entry (b, n), point p, coordinate d reads the centres' table at (n, d), -/
theorem idx_table (b : Fin 64) (n : Fin 128) (p : Fin 8192) (d : Fin 2) :
    idx_main_v0 (idx_main_v2 (idx_main_v9 (idx_main_v15 (ix2 b n) p) d)) = ix2 n d :=
  funext fun a => Fin.ext (by match a with | ⟨0, _⟩ => rfl | ⟨1, _⟩ => rfl)

/-- the sharpness table at (n, d), -/
theorem idx_sharp (b : Fin 64) (n : Fin 128) (p : Fin 8192) (d : Fin 2) :
    idx_main_v6 (idx_main_v7 (idx_main_v9 (idx_main_v15 (ix2 b n) p) d)) = ix2 n d :=
  funext fun a => Fin.ext (by match a with | ⟨0, _⟩ => rfl | ⟨1, _⟩ => rfl)

/-- the points at (b, p, d), -/
theorem idx_point (b : Fin 64) (n : Fin 128) (p : Fin 8192) (d : Fin 2) :
    idx_main_v1 (idx_main_v3 (idx_main_v9 (idx_main_v15 (ix2 b n) p) d)) = ix3 b p d :=
  funext fun a => Fin.ext (by match a with | ⟨0, _⟩ => rfl | ⟨1, _⟩ => rfl | ⟨2, _⟩ => rfl)

/-- and the mask at (b, p). -/
theorem idx_mask (b : Fin 64) (n : Fin 128) (p : Fin 8192) :
    idx_main_v12 (idx_main_v13 (idx_main_v15 (ix2 b n) p)) = ix2 b p :=
  funext fun a => Fin.ext (by match a with | ⟨0, _⟩ => rfl | ⟨1, _⟩ => rfl)

/-- The reference's result is the layer of its arguments. -/
theorem ref_eq (x0 : (⟨S64x8192x2, .f32⟩ : BufTy).Contents (Elt Ideal)) (x1 : (⟨S64x8192, .f32⟩ : BufTy).Contents (Elt Ideal))
    (x2 x3 : (⟨S128x2, .f32⟩ : BufTy).Contents (Elt Ideal)) :
    val_main_v15 (F := Ideal) x0 x1 x2 x3 = layer x0 x1 x2 x3 := by
  funext i
  obtain ⟨b, n, rfl⟩ : ∃ (b : Fin 64) (n : Fin 128), i = ix2 b n := ⟨i 0, i 1, eq_ix2 i⟩
  rw [val_main_v15_apply]
  show _ = ∑ p : Fin 8192, resp x0 x1 x2 x3 b n p
  rw [val_main_cst_0_apply, Ideal.ofBits_def, Ideal.ofBits_zero_f32, zero_add]
  refine Finset.sum_congr rfl fun p _ => ?_
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, Fin.sum_univ_two,
    idx_table, idx_sharp, idx_point, idx_mask,
    Ideal.mulf_def, Ideal.subf_def, Ideal.hostNegf_def, Ideal.negf_def, Ideal.hostUnary_exp_def, Ideal.ofBits_def,
    Ideal.ofBits_zero_f32, zero_add]
  rfl

end Cert.ReferenceIdeal.RefValue

end
-- ==== Proof.lean ====
/-
  A radial-basis layer: for 64 batch rows of 8192 points in the plane, 128 centres with per-axis sharpness and a
  per-point mask, the output at (b, n) is the sum over the points p of
      exp (−((c n 0 − x b p 0)² · s n 0 + (c n 1 − x b p 1)² · s n 1)) · mask b p.

  The kernel walks a 4 × 8 grid — 4 blocks of 16 rows, 8 tiles of 1024 points — keeping a 16 × 128 accumulator:
  zeroed at a row block's first tile, increased at every tile by the tile's sum of responses, copied to the output
  block at the last tile. The reference spreads everything to [64, 128, 8192, 2] and reduces twice. At the ideal
  values both are the same extended real at every (b, n): the tile's way of writing a response is the reference's
  by commutativity and associativity of the product, neutrality of zero and `0 − y = −y` (`Rbf.tile_form`), and
  the sum over 8192 points is the sum over the 8 tiles of the tiles' sums (`Rbf.sum_tiles`); neither needs the
  inputs finite. The modules: `Spec` (the mathematics), `Layout` (the tile's spreads and its reduction at an
  index), `Pieces` (what a grid point leaves in the accumulator, from the recorded stores), `TileValue` (that
  update at an entry), `Blocks` (which array entries a point's blocks hold), `Accum` (the accumulator after each
  point), `Final` (the result array), `RefValue` (the reference is the layer).

  The three programs run, terminate without fault and leave their arguments unchanged: the kernel's two frames are
  the generated frame certificates, the reference's is its generated run with the result dropped. The ideal pass
  rewrote nothing, so the kernel's idealization is the kernel's own text read at the ideal values.
-/
import proofs.«154269_j43190191128605_2_alg».proof.Defs
import proofs.«154269_j43190191128605_2_alg».proof.Proof.Gen.Kernel
import proofs.«154269_j43190191128605_2_alg».proof.Proof.Gen.Kernel.Skeleton
import proofs.«154269_j43190191128605_2_alg».proof.Proof.Gen.Kernel.Launch
import proofs.«154269_j43190191128605_2_alg».proof.Proof.Gen.Kernel.Points
import proofs.«154269_j43190191128605_2_alg».proof.Proof.Gen.Kernel.Frame
import proofs.«154269_j43190191128605_2_alg».proof.Proof.Gen.KernelIdeal
import proofs.«154269_j43190191128605_2_alg».proof.Proof.Gen.KernelIdeal.Skeleton
import proofs.«154269_j43190191128605_2_alg».proof.Proof.Gen.KernelIdeal.Launch
import proofs.«154269_j43190191128605_2_alg».proof.Proof.Gen.KernelIdeal.Points
import proofs.«154269_j43190191128605_2_alg».proof.Proof.Gen.KernelIdeal.Frame
import proofs.«154269_j43190191128605_2_alg».proof.Proof.Gen.ReferenceIdeal
import proofs.«154269_j43190191128605_2_alg».proof.Proof.Gen.Pre_finite_inputs
import proofs.«154269_j43190191128605_2_alg».proof.Proof.Gen.KernelIdeal.Value
import proofs.«154269_j43190191128605_2_alg».proof.Proof.Gen.ReferenceIdeal.Run
import proofs.«154269_j43190191128605_2_alg».proof.Proof.Gen.ReferenceIdeal.Read
import proofs.«154269_j43190191128605_2_alg».proof.Proof.Final
import proofs.«154269_j43190191128605_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel's result array ends at the layer of its arguments
    (`Final.run`) and the reference's at the layer of its own (`RefValue.ref_eq`): the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
